-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S100000x512 : Shape := ⟨2, ![100000, 512]⟩
abbrev S100000 : Shape := ⟨1, ![100000]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S1024x512 .f32) (main_arg1 : IVec S1024 32) (main_arg2 : FVec F S100000x512 .f32) (main_arg3 : FVec F S100000 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S1024x512 : Shape := ⟨2, ![1024, 512]⟩
abbrev S1024 : Shape := ⟨1, ![1024]⟩
abbrev S100000x512 : Shape := ⟨2, ![100000, 512]⟩
abbrev S100000 : Shape := ⟨1, ![100000]⟩
abbrev S1x100000 : Shape := ⟨2, ![1, 100000]⟩
abbrev S1024x100000 : Shape := ⟨2, ![1024, 100000]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S100000, .f32⟩
  | .hbm, ⟨4, _⟩ => ⟨S1x100000, .f32⟩
  | .hbm, ⟨5, _⟩ => ⟨S1024x100000, .f32⟩
  | .local _ .vmem, ⟨0, _⟩ => ⟨S1024x512, .f32⟩
  | .local _ .vmem, ⟨1, _⟩ => ⟨S2048x512, .f32⟩
  | .local _ .vmem, ⟨2, _⟩ => ⟨S2048x512, .f32⟩
  | .local _ .vmem, ⟨3, _⟩ => ⟨S1x2048, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S100000_S1x100000 : S100000.ShapeCasts S1x100000
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x512.size a < S100000x512.size a
  hwx0_1 : ∀ i : grid0.Coords, EltTy.bits .f32 = 32 ∨ (Rect.unit (s := S100000x512) (fun a => cc0_transform_1 i a * S2048x512.size a) (fun a => (Pipeline.Clip.of (cc0_transform_1 i a) (S2048x512.size a) (S100000x512.size a)).extent (S2048x512.size a)) fun a => Pipeline.Clip.inb (Pipeline.Clip.ok_of (hstart0_1 i a))).WholeWords (EltTy.packing .f32)
  hwxs0_1 : ∀ i : grid0.Coords, EltTy.bits .f32 = 32 ∨ (Rect.unit (s := S2048x512) (fun _ => 0) (fun a => (Pipeline.Clip.of (cc0_transform_1 i a) (S2048x512.size a) (S100000x512.size a)).extent (S2048x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x2048.size a < S1x100000.size a
  hwx0_2 : ∀ i : grid0.Coords, EltTy.bits .f32 = 32 ∨ (Rect.unit (s := S1x100000) (fun a => cc0_transform_2 i a * S1x2048.size a) (fun a => (Pipeline.Clip.of (cc0_transform_2 i a) (S1x2048.size a) (S1x100000.size a)).extent (S1x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x2048) (fun _ => 0) (fun a => (Pipeline.Clip.of (cc0_transform_2 i a) (S1x2048.size a) (S1x100000.size a)).extent (S1x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x2048.size a < S1024x100000.size a
  hwx0_3 : ∀ i : grid0.Coords, EltTy.bits .f32 = 32 ∨ (Rect.unit (s := S1024x100000) (fun a => cc0_transform_3 i a * S1024x2048.size a) (fun a => (Pipeline.Clip.of (cc0_transform_3 i a) (S1024x2048.size a) (S1024x100000.size a)).extent (S1024x2048.size a)) fun a => Pipeline.Clip.inb (Pipeline.Clip.ok_of (hstart0_3 i a))).WholeWords (EltTy.packing .f32)
  hwxs0_3 : ∀ i : grid0.Coords, EltTy.bits .f32 = 32 ∨ (Rect.unit (s := S1024x2048) (fun _ => 0) (fun a => (Pipeline.Clip.of (cc0_transform_3 i a) (S1024x2048.size a) (S1024x100000.size a)).extent (S1024x2048.size a)) fun a => (Nat.zero_add _).trans_le (Pipeline.Clip.extent_le (Pipeline.Clip.ok_of (hstart0_3 i a)))).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S2048x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S1024x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024 : Shape := ⟨1, ![1024]⟩
abbrev S100000x512 : Shape := ⟨2, ![100000, 512]⟩
abbrev S100000 : Shape := ⟨1, ![100000]⟩
abbrev S512x100000 : Shape := ⟨2, ![512, 100000]⟩
abbrev S1024x100000 : Shape := ⟨2, ![1024, 100000]⟩
abbrev S1x100000 : Shape := ⟨2, ![1, 100000]⟩

abbrev nBuf : Space → Nat
  | .hbm => 9
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S100000, .f32⟩
  | .hbm, ⟨4, _⟩ => ⟨S512x100000, .f32⟩
  | .hbm, ⟨5, _⟩ => ⟨S1024x100000, .f32⟩
  | .hbm, ⟨6, _⟩ => ⟨S1x100000, .f32⟩
  | .hbm, ⟨7, _⟩ => ⟨S1024x100000, .f32⟩
  | .hbm, ⟨8, _⟩ => ⟨S1024x100000, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  transposes_S100000x512_S512x100000_1_0 : S100000x512.Transposes [1, 0] S512x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  dot_S1024x512_S512x100000_S1024x100000_1_0_0_1_n_n_wf : DotDims.WF S1024x512 S512x100000 S1024x100000 [1] [0] [0] [1] [] []

variable [Facts₀]

def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf

class Facts : Prop extends Facts₀ where

variable [Facts]
-- ==== Proof.BodyBits.lean ====
/-
  The kernel body, run once on whole staging buffers.

  The body reads its three input buffers whole — the activations x : [1024, 512], a block of 2048 rows of the weight
  matrix, and the matching 2048 bias entries laid out as one row —, forms the product of x with the transposed weight
  block into a zero accumulator, adds the bias row to every row of the product, and overwrites its output buffer
  whole with the result. Nothing else is touched: the three inputs are left as found, and what the output buffer held
  before is read once and discarded.

  So, whatever the four buffers hold when the body starts, it runs to the end, and the output buffer then holds the
  one stored value, a function of the three inputs' contents only. Stated for any float instance.
-/
import proofs.«179517_g5669356834823_cont_9to1_m_968_5_alg».proof.Proof.Gen.Kernel.Frame
import proofs.«179517_g5669356834823_cont_9to1_m_968_5_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four whole-buffer rectangles the body loads and stores through. -/
abbrev rX : Rect S1024x512 := Rect.unit (s := S1024x512) ![0, 0] S1024x512.size inb_S1024x512_S1024x512_0_0
abbrev rW : Rect S2048x512 := Rect.unit (s := S2048x512) ![0, 0] S2048x512.size inb_S2048x512_S2048x512_0_0
abbrev rB : Rect S1x2048 := Rect.unit (s := S1x2048) ![0, 0] S1x2048.size inb_S1x2048_S1x2048_0_0
abbrev rO : Rect S1024x2048 := Rect.unit (s := S1024x2048) ![0, 0] S1024x2048.size inb_S1024x2048_S1024x2048_0_0

/-- What the output buffer holds after the body, from the three inputs' contents: its one store, laid over the buffer. -/
def stored (x0 : Vec F S1024x512 .f32) (x1 : Vec F S2048x512 .f32) (x2 : Vec F S1x2048 .f32) : Vec F S1024x2048 .f32 :=
  View.canon [⟨rO, k0_pay1 (View.ld x0 rX) (View.ld x1 rW) (View.ld x2 rB)⟩]

theorem zero_offsets : (![0, 0] : Fin 2 → Nat) = fun _ => 0 := funext fun a => by fin_cases a <;> rfl

/-- Every access is through the whole buffer, so the stored value is the product-plus-bias of the contents themselves. -/
theorem stored_eq (x0 : Vec F S1024x512 .f32) (x1 : Vec F S2048x512 .f32) (x2 : Vec F S1x2048 .f32) :
    stored x0 x1 x2 = k0_pay1 x0 x1 x2 := by
  unfold stored
  rw [View.canon_unit_zero zero_offsets, View.ld_unit_zero (S := S1024x512) zero_offsets,
    View.ld_unit_zero (S := S2048x512) zero_offsets, View.ld_unit_zero (S := S1x2048) zero_offsets]

/-- The one store covers the output buffer. -/
theorem store_covers (p0 : Vec F S1024x2048 .f32) (y : S1024x2048.Idx) :
    ∃ pc ∈ ([⟨rO, p0⟩] : List (View.Piece (Elt F) S1024x2048 .f32)), y ∈ pc.1.set :=
  ⟨_, List.mem_singleton_self _, View.mem_set_unit_zero zero_offsets inb_S1024x2048_S1024x2048_0_0 y⟩

set_option maxHeartbeats 1000000 in
/-- The body on whole staging buffers: the inputs at contents x0, x1, x2 and the output at anything. It runs to the
    continuation with the inputs as they were and the output at the stored value. -/
theorem sound_kernel (c : Dev nD) (E : Set ℕ) (i : grid0.Coords)
    (arg1 : Memref sig .tc .vmem S1024x512 .f32) (harg1 : arg1.IsWhole)
    (arg2 : Memref sig .tc .vmem S2048x512 .f32) (harg2 : arg2.IsWhole)
    (arg3 : Memref sig .tc .vmem S1x2048 .f32) (harg3 : arg3.IsWhole)
    (arg4 : Memref sig .tc .vmem S1024x2048 .f32) (harg4 : arg4.IsWhole)
    (x0 : Vec F S1024x512 .f32) (x1 : Vec F S2048x512 .f32) (x2 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (stored x0 x1 x2)) -∗ K ⟨⟩))
      ⊢ wp frame (wpE (defs₀ (F := F)) Variants.none c none) E
          (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

end Cert.Kernel.Body

end
-- ==== Proof.FrameBits.lean ====
/-
  The word-level kernel runs to the end, faults nowhere and leaves its four argument arrays as launched.

  This claim reads nothing of what the kernel computes, so the proof data constrain nothing: whatever each staging
  buffer holds when the body is called, the body (one run of it on whole buffers, BodyBits.lean) returns every buffer
  at some contents. That is all the pipeline needs to carry the 49 grid points through. An array the pipeline only
  reads is never written, so the activations and the weight matrix end as they began; the labels and the bias
  vector are no window's array (the kernel stages a reshaped copy of the bias) and bypass the region untouched.
-/
import proofs.«179517_g5669356834823_cont_9to1_m_968_5_alg».proof.Proof.BodyBits

set_option maxRecDepth 16384

noncomputable section

namespace Cert.Kernel.FrameR

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core c: the arrays as the region finds them, and no constraint on what the body leaves in any
    staging buffer. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point, from any contents of the four current buffers, the body runs and hands the four buffers back. -/
theorem body_obligation (c : Dev nD) : (rdats m c).BodyObligation (defs₀ (F := F)) Variants.none () Set.univ := fun t Y _ => by
  rw [bigSep_W0, bigSep_W0]
  rw [show (rdats m c).Φ t.succ = (rdats m c).Φ t.castSucc from rfl,
    show (rdats m c).owesAt () t.succ = (rdats m c).owesAt () t.castSucc from rfl]
  change _ ⊢ wp frame (wpE (defs₀ (F := F)) Variants.none c none) Set.univ (bodyAt0 t) _
  unfold bodyAt0
  iintro ⟨HΦ, Ho, H0, H1, H2, H3⟩
  iapply (Cert.Kernel.Body.sound_kernel (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  · iexists (Cert.Kernel.Body.stored (F := F) (Y 0) (Y 1) (Y 2)); isplitr; · ipureintro; trivial
    iexact H3

set_option backward.isDefEq.respectTransparency.types false in
/-- Every weakly fair execution of @main terminates; each array of the pipeline then holds something the write-backs
    may have left there, and every other unscoped buffer what the region found. -/
theorem run_main : θ_run defs (onTc (τ := τ) (main (F := F))) (s₀ m ρ) (Pipeline.RDat.FramePost (cfgs 0) (rdats m) (V m)) :=
  Pipeline.RDat.θ_run_frame cfgs (0 : Fin 1) launch0 defs₀ Variants.none (rdats m) m ρ main
    (hbody := body_obligation m) (hshare := fun c => (rdats m c).share_full fun _ => rfl)
    (howed := fun _ _ => rfl) (V := V m) (hmain := hmain m Variants.none) (hA := fun _ _ => rfl) (hΦ := fun _ _ => rfl)

/-- The frame: the two staged inputs are never written, the two other arguments bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    have h0 := (h c).1 0
    have h1 := (h c).1 1
    ⟨(by rw [(rdats m c).ArrAt_in 0 rfl] at h0; exact h0.trans (V_main_arg0 m c)),
      ((h c).2 main_arg1 (Pipeline.mem_restRefs_of main_arg1 (by decide) (by decide))).trans (V_main_arg1 m c),
      (by rw [(rdats m c).ArrAt_in 1 rfl] at h1; exact h1.trans (V_main_arg2 m c)),
      ((h c).2 main_arg3 (Pipeline.mem_restRefs_of main_arg3 (by decide) (by decide))).trans (V_main_arg3 m c)⟩) (run_main m ρ)

end Cert.Kernel.FrameR

end
-- ==== Proof.BodyIdeal.lean ====
/-
  The kernel body, run once on whole staging buffers.

  The body reads its three input buffers whole — the activations x : [1024, 512], a block of 2048 rows of the weight
  matrix, and the matching 2048 bias entries laid out as one row —, forms the product of x with the transposed weight
  block into a zero accumulator, adds the bias row to every row of the product, and overwrites its output buffer
  whole with the result. Nothing else is touched: the three inputs are left as found, and what the output buffer held
  before is read once and discarded.

  So, whatever the four buffers hold when the body starts, it runs to the end, and the output buffer then holds the
  one stored value, a function of the three inputs' contents only. Stated for any float instance.
-/
import proofs.«179517_g5669356834823_cont_9to1_m_968_5_alg».proof.Proof.Gen.KernelIdeal.Frame
import proofs.«179517_g5669356834823_cont_9to1_m_968_5_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four whole-buffer rectangles the body loads and stores through. -/
abbrev rX : Rect S1024x512 := Rect.unit (s := S1024x512) ![0, 0] S1024x512.size inb_S1024x512_S1024x512_0_0
abbrev rW : Rect S2048x512 := Rect.unit (s := S2048x512) ![0, 0] S2048x512.size inb_S2048x512_S2048x512_0_0
abbrev rB : Rect S1x2048 := Rect.unit (s := S1x2048) ![0, 0] S1x2048.size inb_S1x2048_S1x2048_0_0
abbrev rO : Rect S1024x2048 := Rect.unit (s := S1024x2048) ![0, 0] S1024x2048.size inb_S1024x2048_S1024x2048_0_0

/-- What the output buffer holds after the body, from the three inputs' contents: its one store, laid over the buffer. -/
def stored (x0 : Vec F S1024x512 .f32) (x1 : Vec F S2048x512 .f32) (x2 : Vec F S1x2048 .f32) : Vec F S1024x2048 .f32 :=
  View.canon [⟨rO, k0_pay1 (View.ld x0 rX) (View.ld x1 rW) (View.ld x2 rB)⟩]

theorem zero_offsets : (![0, 0] : Fin 2 → Nat) = fun _ => 0 := funext fun a => by fin_cases a <;> rfl

/-- Every access is through the whole buffer, so the stored value is the product-plus-bias of the contents themselves. -/
theorem stored_eq (x0 : Vec F S1024x512 .f32) (x1 : Vec F S2048x512 .f32) (x2 : Vec F S1x2048 .f32) :
    stored x0 x1 x2 = k0_pay1 x0 x1 x2 := by
  unfold stored
  rw [View.canon_unit_zero zero_offsets, View.ld_unit_zero (S := S1024x512) zero_offsets,
    View.ld_unit_zero (S := S2048x512) zero_offsets, View.ld_unit_zero (S := S1x2048) zero_offsets]

/-- The one store covers the output buffer. -/
theorem store_covers (p0 : Vec F S1024x2048 .f32) (y : S1024x2048.Idx) :
    ∃ pc ∈ ([⟨rO, p0⟩] : List (View.Piece (Elt F) S1024x2048 .f32)), y ∈ pc.1.set :=
  ⟨_, List.mem_singleton_self _, View.mem_set_unit_zero zero_offsets inb_S1024x2048_S1024x2048_0_0 y⟩

set_option maxHeartbeats 1000000 in
/-- The body on whole staging buffers: the inputs at contents x0, x1, x2 and the output at anything. It runs to the
    continuation with the inputs as they were and the output at the stored value. -/
theorem sound_kernel (c : Dev nD) (E : Set ℕ) (i : grid0.Coords)
    (arg1 : Memref sig .tc .vmem S1024x512 .f32) (harg1 : arg1.IsWhole)
    (arg2 : Memref sig .tc .vmem S2048x512 .f32) (harg2 : arg2.IsWhole)
    (arg3 : Memref sig .tc .vmem S1x2048 .f32) (harg3 : arg3.IsWhole)
    (arg4 : Memref sig .tc .vmem S1024x2048 .f32) (harg4 : arg4.IsWhole)
    (x0 : Vec F S1024x512 .f32) (x1 : Vec F S2048x512 .f32) (x2 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (stored x0 x1 x2)) -∗ K ⟨⟩))
      ⊢ wp frame (wpE (defs₀ (F := F)) Variants.none c none) E
          (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

end Cert.KernelIdeal.Body

end
-- ==== Proof.PayloadIdeal.lean ====
/-
  The body's stored value, read at an index, on the extended reals.

  With a the activations [1024, 512], w a block of 2048 weight rows [2048, 512] and r the bias row [1, 2048], the
  stored value at (p, q) is
      (Σ k : Fin 512, a (p, k) * w (q, k)) + r (0, q).
  The matrix unit contracts the second axis of both operands into a zero accumulator, which on the extended reals is
  the plain sum of the 512 products (0 + s = s holds at the infinities too); the bias row is repeated down the 1024
  rows and added entry by entry. In particular entry (p, q) depends on row q of w and on column q of r only.
-/
import proofs.«179517_g5669356834823_cont_9to1_m_968_5_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-- The product's dimension record: both operands contract their second axis. -/
abbrev DD : DotDims S1024x512 S2048x512 S1024x2048 := dot_S1024x512_S2048x512_S1024x2048_1_1_0_0_n_n

/-- The left operand is read at the output's row and the contraction position, -/
theorem lhs_row (i : S1024x2048.Idx) (q : DD.contr.Idx) : (DD.lhsIdx i q 0).val = (i 0).val := by
  unfold DotDims.lhsIdx
  rw [dif_neg (show ¬(0 : Fin S1024x512.rank) ∈ DD.lhsBatch by decide), dif_pos (show (0 : Fin S1024x512.rank) ∈ DD.lhsNonContracting by decide)]
  rfl
theorem lhs_pos (i : S1024x2048.Idx) (q : DD.contr.Idx) : (DD.lhsIdx i q 1).val = (q ⟨0, by decide⟩).val :=
  DD.lhsIdx_val_of_single rfl i q
/-- the right operand at the output's COLUMN (as its row) and the contraction position. -/
theorem rhs_row (i : S1024x2048.Idx) (q : DD.contr.Idx) : (DD.rhsIdx i q 0).val = (i 1).val := by
  unfold DotDims.rhsIdx
  rw [dif_neg (show ¬(0 : Fin S2048x512.rank) ∈ DD.rhsBatch by decide), dif_pos (show (0 : Fin S2048x512.rank) ∈ DD.rhsNonContracting by decide)]
  rfl
theorem rhs_pos (i : S1024x2048.Idx) (q : DD.contr.Idx) : (DD.rhsIdx i q 1).val = (q ⟨0, by decide⟩).val :=
  DD.rhsIdx_val_of_single rfl i q

/-- The product into the zero accumulator at (p, q): row p of the left operand against row q of the right. -/
theorem product_apply (a : Vec Ideal S1024x512 .f32) (w : Vec Ideal S2048x512 .f32) (p : Fin 1024) (q : Fin 2048) :
    matmul (F := Ideal) (φ₁ := .f32) (φ₂ := .f32) DD none a w (constant (F := Ideal) S1024x2048 .f32 0x00000000#32) (ix2 p q)
      = ∑ k : Fin 512, a (ix2 p k) * w (ix2 q k) := by
  simp only [matmul]
  rw [Ideal.matmul_constant_zero_apply, ← Equiv.sum_comp (contrEquiv1 DD 512 rfl rfl).symm]
  refine Finset.sum_congr rfl fun k _ => ?_
  have hk := contrEquiv1_symm_val DD 512 rfl rfl k
  have el : DD.lhsIdx (ix2 p q) ((contrEquiv1 DD 512 rfl rfl).symm k) = ix2 p k := funext fun ax => Fin.ext (by
    match ax with
    | ⟨0, _⟩ => exact lhs_row _ _
    | ⟨1, _⟩ => exact (lhs_pos _ _).trans hk)
  have er : DD.rhsIdx (ix2 p q) ((contrEquiv1 DD 512 rfl rfl).symm k) = ix2 q k := funext fun ax => Fin.ext (by
    match ax with
    | ⟨0, _⟩ => exact rhs_row _ _
    | ⟨1, _⟩ => exact (rhs_pos _ _).trans hk)
  rw [el, er]

/-- The stored value at (p, q). -/
theorem stored_apply (a : Vec Ideal S1024x512 .f32) (w : Vec Ideal S2048x512 .f32) (r : Vec Ideal S1x2048 .f32)
    (p : Fin 1024) (q : Fin 2048) :
    k0_pay1 (F := Ideal) a w r (ix2 p q) = (∑ k : Fin 512, a (ix2 p k) * w (ix2 q k)) + r (ix2 (0 : Fin 1) q) := by
  unfold k0_pay1
  show matmul (F := Ideal) (φ₁ := .f32) (φ₂ := .f32) DD none a w (constant (F := Ideal) S1024x2048 .f32 0x00000000#32) (ix2 p q)
      + broadcastTo S1024x2048 (shapeCast S1x2048 r shapeCasts_S1x2048_S1x2048) broadcasts_S1x2048_S1024x2048 (ix2 p q) = _
  rw [product_apply, shapeCast_self, broadcastTo_1b_ab_apply]

end Cert.KernelIdeal.Payload

end
-- ==== Proof.Spec.lean ====
/-
  The common value of the two programs, as one function of the argument arrays.

  With x : [1024, 512], W : [100000, 512] and b : [100000], the result is the [1024, 100000] array
      logits (m, n) = (Σ k : Fin 512, x (m, k) * W (n, k)) + b n
  over the extended reals: a dense projection of each row of x onto every row of W, plus one bias per column.
  Both programs compute exactly this sum of 512 products in the same operand order, so no law beyond reading
  each operation at an index is needed, and nothing here asks that an entry be finite.
-/
import Idealize.ShloMosaic.PureOps.Ideal
import Idealize.ShloMosaic.Lib.ValueIdx

noncomputable section

namespace Cert.Logits

open Idealize.ShloMosaic Idealize.ShloMosaic.ValueIdx

/-- The literal shapes of the claim. -/
abbrev SX : Shape := ⟨2, ![1024, 512]⟩
abbrev SW : Shape := ⟨2, ![100000, 512]⟩
abbrev SB : Shape := ⟨1, ![100000]⟩
abbrev SO : Shape := ⟨2, ![1024, 100000]⟩

/-- Row m of x against row n of W, summed over the 512 shared coordinates, plus the bias of column n. -/
def entry (x : SX.Idx → EReal) (w : SW.Idx → EReal) (b : SB.Idx → EReal) (m : Fin 1024) (n : Fin 100000) : EReal :=
  (∑ k : Fin 512, x (ix2 m k) * w (ix2 n k)) + b (ix1 n)

/-- The whole result array: entry (m, n) at index (m, n). -/
def logits (x : SX.Idx → EReal) (w : SW.Idx → EReal) (b : SB.Idx → EReal) : SO.Idx → EReal :=
  fun i => entry x w b (i 0) (i 1)

theorem logits_ix2 (x : SX.Idx → EReal) (w : SW.Idx → EReal) (b : SB.Idx → EReal) (m : Fin 1024) (n : Fin 100000) :
    logits x w b (ix2 m n) = entry x w b m n := rfl

end Cert.Logits

end
-- ==== Proof.BlocksIdeal.lean ====
/-
  The idealized kernel's proof data, and what each staging buffer holds when the body is called.

  The grid has 49 points. Point t stages rows 2048 t … of the weight matrix, columns 2048 t … of the bias row and of
  the result; the activations are staged whole, once. 49 · 2048 = 100352 exceeds 100000, so the last point's blocks
  overhang their arrays by 352: its transfers move only the first 1696 rows (columns), and what the rest of a staging
  buffer then holds is not stated by anyone. Entry (p, q) of the stored value depends on row q of the weight block
  and on column q of the bias block only (PayloadIdeal.lean), so on the columns that are written back the stored value
  does not see the unstated part: there it is the logits array of Spec.lean read through the point's block.
-/
import proofs.«179517_g5669356834823_cont_9to1_m_968_5_alg».proof.Proof.BodyIdeal
import proofs.«179517_g5669356834823_cont_9to1_m_968_5_alg».proof.Proof.PayloadIdeal
import proofs.«179517_g5669356834823_cont_9to1_m_968_5_alg».proof.Proof.Spec
import Idealize.ShloMosaic.Lib.StableHlo.Run
import Idealize.ShloMosaic.Lib.ValueLayout

set_option maxRecDepth 16384

noncomputable section

namespace Cert.KernelIdeal.Data

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The schedule's arithmetic, decided once over the 49 points -/

/-- Where each window's block sits at point t, and how much of it the transfers move: the activations at block (0, 0);
    weight rows, bias columns and result columns at block t; the moved extent along the long axis the same for the
    three, 2048 cut at the array's end. -/
theorem grid_facts : ∀ t : Fin cfg0.N,
    (win0_0.index t 0 = 0 ∧ win0_0.index t 1 = 0)
    ∧ (win0_1.index t 0 = t.val ∧ win0_1.index t 1 = 0)
    ∧ (win0_2.index t 0 = 0 ∧ win0_2.index t 1 = t.val)
    ∧ (win0_3.index t 0 = 0 ∧ win0_3.index t 1 = t.val)
    ∧ (win0_1.xsize (grid0.coords t) 0 = min 2048 (100000 - t.val * 2048) ∧ win0_1.xsize (grid0.coords t) 1 = 512)
    ∧ (win0_2.xsize (grid0.coords t) 0 = 1 ∧ win0_2.xsize (grid0.coords t) 1 = min 2048 (100000 - t.val * 2048))
    ∧ (win0_3.xsize (grid0.coords t) 0 = 1024 ∧ win0_3.xsize (grid0.coords t) 1 = min 2048 (100000 - t.val * 2048))
    ∧ t.val * 2048 < 100000 :=
  (by decide +kernel : ∀ t : Fin grid0.N, _)

/-- A filled block read at an index the transfer moves is the fetched part there. -/
theorem fill_moved {G : Pipeline.Grid} (w : Pipeline.Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Pipeline.Window.fill; rw [dif_pos ((w.moved_iff i j).mpr h)]

variable (m : (ℓ : Loc nD τ sig) → Buf (Elt Ideal) ℓ) (ρ : Dev nD → PrngReg)

/-! ## The blocks, read at an index -/

/-- The activations' block is the whole array: entry (p, k) of the launch contents. -/
theorem act_read (c : Dev nD) (t : Fin cfg0.N) (y : S1024x512.Idx) :
    iblk m c 0 t y = m ((c : Thread nD τ).loc main_arg0) y := by
  show V m c main_arg0 (((cfg0.win 0).blk t).view.emb y) = _
  rw [V_main_arg0]
  refine congrArg _ (funext fun a => Fin.ext ?_)
  obtain ⟨⟨h0, h1⟩, -⟩ := grid_facts t
  match a with
  | ⟨0, _⟩ => show win0_0.index t 0 * 1024 + 1 * (y 0).val = (y 0).val; rw [h0]; omega
  | ⟨1, _⟩ => show win0_0.index t 1 * 512 + 1 * (y 1).val = (y 1).val; rw [h1]; omega

/-- Row q of the weight block at point t, where the fetch filled it, is row 2048 t + q of the weight matrix. -/
theorem weight_read (c : Dev nD) (t : Fin cfg0.N) (d : S2048x512.Idx → Elt Ideal .f32) (q : Fin 2048) (k : Fin 512)
    (hq : q.val < min 2048 (100000 - t.val * 2048)) :
    win0_1.fill (grid0.coords t) d (iblk m c 1 t) (ix2 q k)
      = m ((c : Thread nD τ).loc main_arg2) (ix2 (⟨t.val * 2048 + q.val, by omega⟩ : Fin 100000) k) := by
  obtain ⟨-, ⟨i0, i1⟩, -, -, ⟨x0, x1⟩, -⟩ := grid_facts t
  have hmv : ∀ a, ((ix2 q k : S2048x512.Idx) a).val < win0_1.xsize (grid0.coords t) a := fun a => by
    match a with
    | ⟨0, _⟩ => show q.val < win0_1.xsize (grid0.coords t) 0; rw [x0]; exact hq
    | ⟨1, _⟩ => show k.val < win0_1.xsize (grid0.coords t) 1; rw [x1]; exact k.isLt
  rw [fill_moved win0_1 (grid0.coords t) d (iblk m c 1 t) (ix2 q k) hmv]
  show V m c main_arg2 (((cfg0.win 1).blk t).view.emb _) = _
  rw [V_main_arg2]
  refine congrArg _ (funext fun a => Fin.ext ?_)
  match a with
  | ⟨0, _⟩ => show win0_1.index t 0 * 2048 + 1 * q.val = t.val * 2048 + q.val; rw [i0]; omega
  | ⟨1, _⟩ => show win0_1.index t 1 * 512 + 1 * k.val = k.val; rw [i1]; omega

/-- The bias row the region finds is the bias vector laid out as one row. -/
theorem bias_row (c : Dev nD) :
    (V m c main_v0 : S1x100000.Idx → Elt Ideal .f32)
      = shapeCast S1x100000 (m ((c : Thread nD τ).loc main_arg3)) shapeCasts_S100000_S1x100000 := by
  dsimp only [V, hostOps0]; after_results; rfl

/-- Column q of the bias block at point t, where the fetch filled it, is entry 2048 t + q of the bias vector. -/
theorem bias_read (c : Dev nD) (t : Fin cfg0.N) (d : S1x2048.Idx → Elt Ideal .f32) (q : Fin 2048)
    (hq : q.val < min 2048 (100000 - t.val * 2048)) :
    win0_2.fill (grid0.coords t) d (iblk m c 2 t) (ix2 (0 : Fin 1) q)
      = m ((c : Thread nD τ).loc main_arg3) (ix1 (⟨t.val * 2048 + q.val, by omega⟩ : Fin 100000)) := by
  obtain ⟨-, -, ⟨i0, i1⟩, -, -, ⟨x0, x1⟩, -⟩ := grid_facts t
  have hmv : ∀ a, ((ix2 (0 : Fin 1) q : S1x2048.Idx) a).val < win0_2.xsize (grid0.coords t) a := fun a => by
    match a with
    | ⟨0, _⟩ => show (0 : Nat) < win0_2.xsize (grid0.coords t) 0; rw [x0]; exact Nat.one_pos
    | ⟨1, _⟩ => show q.val < win0_2.xsize (grid0.coords t) 1; rw [x1]; exact hq
  rw [fill_moved win0_2 (grid0.coords t) d (iblk m c 2 t) (ix2 (0 : Fin 1) q) hmv]
  show V m c main_v0 (((cfg0.win 2).blk t).view.emb _) = _
  have e : ((cfg0.win 2).blk t).view.emb (fun a => ⟨((ix2 (0 : Fin 1) q : S1x2048.Idx) a).val, hmv a⟩)
      = (ix2 (0 : Fin 1) (⟨t.val * 2048 + q.val, by omega⟩ : Fin 100000) : S1x100000.Idx) :=
    funext fun a => Fin.ext (by
      match a with
      | ⟨0, _⟩ => show win0_2.index t 0 * 1 + 1 * 0 = 0; rw [i0]
      | ⟨1, _⟩ => show win0_2.index t 1 * 2048 + 1 * q.val = t.val * 2048 + q.val; rw [i1]; omega)
  rw [e, bias_row, shapeCast_a_1a_apply]

/-! ## The result, and what is written back of the stored value -/

/-- The logits array of the launch contents on core c. -/
def target (c : Dev nD) : Buf (Elt Ideal) ((c : Thread nD τ).loc main_v1) :=
  Cert.Logits.logits (m ((c : Thread nD τ).loc main_arg0)) (m ((c : Thread nD τ).loc main_arg2))
    (m ((c : Thread nD τ).loc main_arg3))

/-- The stored value at (p, q), of any three buffers that hold, on row p, on row q and at column q, the entries the
    logits' entry (p, n) is made of. -/
theorem stored_at (a : Vec Ideal S1024x512 .f32) (w : Vec Ideal S2048x512 .f32) (r : Vec Ideal S1x2048 .f32)
    (A0 : Cert.Logits.SX.Idx → EReal) (A2 : Cert.Logits.SW.Idx → EReal) (A3 : Cert.Logits.SB.Idx → EReal)
    (p : Fin 1024) (q : Fin 2048) (n : Fin 100000)
    (h0 : ∀ k : Fin 512, a (ix2 p k) = A0 (ix2 p k)) (h1 : ∀ k : Fin 512, w (ix2 q k) = A2 (ix2 n k))
    (h2 : r (ix2 (0 : Fin 1) q) = A3 (ix1 n)) :
    Cert.KernelIdeal.Body.stored (F := Ideal) a w r (ix2 p q) = Cert.Logits.logits A0 A2 A3 (ix2 p n) := by
  rw [Cert.KernelIdeal.Body.stored_eq, Cert.KernelIdeal.Payload.stored_apply, h2, Cert.Logits.logits_ix2]
  unfold Cert.Logits.entry
  simp only [h0, h1]

/-- On the columns that are written back, what the body stored at point t is the logits array read through the
    point's result block — whatever the weight and bias buffers held past their arrays' ends. -/
theorem cut_stored (c : Dev nD) (t : Fin cfg0.N) (d1 : S2048x512.Idx → Elt Ideal .f32) (d2 : S1x2048.Idx → Elt Ideal .f32) :
    win0_3.cut (grid0.coords t) (Cert.KernelIdeal.Body.stored (F := Ideal) (iblk m c 0 t)
        (win0_1.fill (grid0.coords t) d1 (iblk m c 1 t)) (win0_2.fill (grid0.coords t) d2 (iblk m c 2 t)))
      = (win0_3.blk t).view.read (Elt Ideal) (target m c) := by
  funext j
  obtain ⟨-, -, -, ⟨i0, i1⟩, -, -, ⟨x0, x1⟩, hlt⟩ := grid_facts t
  have hp : (j 0).val < 1024 := Nat.lt_of_lt_of_eq (j 0).isLt x0
  have hq : (j 1).val < min 2048 (100000 - t.val * 2048) := Nat.lt_of_lt_of_eq (j 1).isLt x1
  have hq' : (j 1).val < 2048 := by omega
  show Cert.KernelIdeal.Body.stored (F := Ideal) (iblk m c 0 t) (win0_1.fill (grid0.coords t) d1 (iblk m c 1 t))
      (win0_2.fill (grid0.coords t) d2 (iblk m c 2 t)) (win0_3.xinj (grid0.coords t) j)
    = target m c ((win0_3.blk t).view.emb j)
  have eJ : win0_3.xinj (grid0.coords t) j = (ix2 (⟨(j 0).val, hp⟩ : Fin 1024) (⟨(j 1).val, hq'⟩ : Fin 2048) : S1024x2048.Idx) :=
    funext fun a => Fin.ext (by match a with | ⟨0, _⟩ => rfl | ⟨1, _⟩ => rfl)
  have eE : (win0_3.blk t).view.emb j
      = (ix2 (⟨(j 0).val, hp⟩ : Fin 1024) (⟨t.val * 2048 + (j 1).val, by omega⟩ : Fin 100000) : S1024x100000.Idx) :=
    funext fun a => Fin.ext (by
      match a with
      | ⟨0, _⟩ => show win0_3.index t 0 * 1024 + 1 * (j 0).val = (j 0).val; rw [i0]; omega
      | ⟨1, _⟩ => show win0_3.index t 1 * 2048 + 1 * (j 1).val = t.val * 2048 + (j 1).val; rw [i1]; omega)
  rw [eJ, eE]
  exact stored_at (iblk m c 0 t) (win0_1.fill (grid0.coords t) d1 (iblk m c 1 t)) (win0_2.fill (grid0.coords t) d2 (iblk m c 2 t))
    _ _ _ ⟨(j 0).val, hp⟩ ⟨(j 1).val, hq'⟩ ⟨t.val * 2048 + (j 1).val, by omega⟩
    (fun k => act_read m c t _) (fun k => weight_read m c t d1 ⟨(j 1).val, hq'⟩ k hq) (bias_read m c t d2 ⟨(j 1).val, hq'⟩ hq)

end Cert.KernelIdeal.Data

end
-- ==== Proof.RunIdeal.lean ====
/-
  The idealized kernel's run: it terminates, leaves its arguments as launched, and its result array ends as the
  logits array of Spec.lean.

  The proof data name what each staging buffer holds after the body at each of the 49 points: the activations'
  buffer the whole array; the weight and bias buffers their blocks, filled out past the arrays' ends with a word
  nothing reads; the result's buffer the logits array read through the point's block, filled out likewise. Of the
  three clipped windows only the part the transfers move is ever stated, and on that part the stored value is the
  logits block (BlocksIdeal.lean), whatever the rest held.

  Every column n of the result lies in the block of point n / 2048, and every point writes its block back, so the
  write-backs cover the result array: it ends holding the logits array everywhere.
-/
import proofs.«179517_g5669356834823_cont_9to1_m_968_5_alg».proof.Proof.BlocksIdeal

set_option maxRecDepth 16384

noncomputable section

namespace Cert.KernelIdeal.Data

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- On core c: the arrays as the region finds them; after the body at point t the four staging buffers as described
    above; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => FloatOps.ofBits (F := Ideal) .f32 0#32) (iblk m c 1 t)
    | ⟨2, _⟩ => win0_2.fill (grid0.coords t) (fun _ => FloatOps.ofBits (F := Ideal) .f32 0#32) (iblk m c 2 t)
    | ⟨3, _⟩ => win0_3.fill (grid0.coords t) (fun _ => FloatOps.ofBits (F := Ideal) .f32 0#32) ((win0_3.blk t).view.read (Elt Ideal) (target m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) :
    (dats m 0 c).after 1 t = win0_1.fill (grid0.coords t) (fun _ => FloatOps.ofBits (F := Ideal) .f32 0#32) (iblk m c 1 t) := by dsimp only [dats]
theorem after2 (c : Dev nD) (t : Fin cfg0.N) :
    (dats m 0 c).after 2 t = win0_2.fill (grid0.coords t) (fun _ => FloatOps.ofBits (F := Ideal) .f32 0#32) (iblk m c 2 t) := by dsimp only [dats]
theorem after3 (c : Dev nD) (t : Fin cfg0.N) :
    (dats m 0 c).after 3 t = win0_3.fill (grid0.coords t) (fun _ => FloatOps.ofBits (F := Ideal) .f32 0#32)
      ((win0_3.blk t).view.read (Elt Ideal) (target m c)) := by dsimp only [dats]

/-! ## What the body finds -/

/-- The activations' buffer holds the whole array at every point, fetched there (the first point) or not. -/
theorem before0 (c : Dev nD) (t : Fin cfg0.N) (d) : (dats m 0 c).before 0 t d = iblk m c 0 t :=
  before0_0_of m (dats m 0 c) (A_eq m c 0) (after0 m c) t d

/-- The weight buffer is fetched at every point: its block where the fetch filled it, anything elsewhere. -/
theorem before1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk; rw [A_eq]

/-- The bias buffer likewise. -/
theorem before2 (c : Dev nD) (t : Fin cfg0.N) (d) :
    (dats m 0 c).before 2 t d = win0_2.fill (grid0.coords t) d (iblk m c 2 t) := by
  rw [(dats m 0 c).before_fetched 2 t (fetch0_2 t)]
  unfold Dat.fetched Dat.blockOf iblk; rw [A_eq]

/-! ## The body obligation -/

/-- At every point the body runs from what the four current buffers then hold to what the proof data name: the
    activations' buffer exactly, the three clipped windows' on the part their transfers move. -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  change _ ⊢ wp frame (wpE (defs₀ (F := Ideal)) Variants.none c none) Set.univ (bodyAt0 t) _
  unfold bodyAt0
  iintro ⟨HΦ, Ho, ⟨%d0, H0⟩, ⟨%d1, H1⟩, ⟨%d2, H2⟩, ⟨%d3, H3⟩⟩
  rw [before0 m c t d0, before1 m c t d1, before2 m c t d2]
  iapply (Cert.KernelIdeal.Body.sound_kernel (F := Ideal) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))
    (iblk m c 0 t) (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · rw [after0]; iexact H0
  isplitl [H1]
  · iexists d1; rw [after1, win0_1.cut_fill]; iexact H1
  isplitl [H2]
  · iexists d2; rw [after2, win0_2.cut_fill]; iexact H2
  · iexists (Cert.KernelIdeal.Body.stored (F := Ideal) (iblk m c 0 t) (win0_1.fill (grid0.coords t) d1 (iblk m c 1 t))
      (win0_2.fill (grid0.coords t) d2 (iblk m c 2 t)))
    rw [after3, win0_3.cut_fill, ← cut_stored m c t d1 d2, win0_3.fill_cut]
    iexact H3

/-! ## The run, the frame and the result -/

set_option backward.isDefEq.respectTransparency.types false in
/-- Every weakly fair execution of @main terminates; every array of the pipeline then holds what the write-backs
    computed from the proof data leave, every other unscoped buffer what the region found. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The frame: the four argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- What point t writes back is the logits array read through its block. -/
theorem flushed_eq (c : Dev nD) (t : Fin cfg0.N) :
    (dats m 0 c).flushed 3 t = ((cfg0.win 3).blk t).view.read (Elt Ideal) (target m c) := by
  show win0_3.cut (grid0.coords t) ((dats m 0 c).after 3 t) = _
  rw [after3]; exact win0_3.cut_fill _ _ _

/-- Column n of the result lies in the block of point n / 2048 (every row does: the blocks span the rows). -/
theorem covered (i : S1024x100000.Idx) :
    ∃ t : Fin cfg0.N, (cfg0.win 3).flush t = true ∧ i ∈ ((cfg0.win 3).blk t).view.set := by
  have hn : (i 1).val < 100000 := (i 1).isLt
  have hr : (i 0).val < 1024 := (i 0).isLt
  let t : Fin cfg0.N := ⟨(i 1).val / 2048, by rw [show cfg0.N = 49 from N_0]; omega⟩
  refine ⟨t, flush0_3 t, ?_⟩
  obtain ⟨-, -, -, ⟨i0, i1⟩, -, -, ⟨x0, x1⟩, -⟩ := grid_facts t
  have ht : t.val = (i 1).val / 2048 := rfl
  show i ∈ ((View.whole main_v1).slice (win0_3.rect t)).set
  rw [View.set_slice_whole, Rect.mem_set_unit]
  intro a
  match a with
  | ⟨0, _⟩ =>
    show win0_3.index t 0 * 1024 ≤ (i 0).val ∧ (i 0).val < win0_3.index t 0 * 1024 + win0_3.xsize (grid0.coords t) 0
    rw [i0, x0]; omega
  | ⟨1, _⟩ =>
    show win0_3.index t 1 * 2048 ≤ (i 1).val ∧ (i 1).val < win0_3.index t 1 * 2048 + win0_3.xsize (grid0.coords t) 1
    rw [i1, x1, ht]; omega

/-- The result array after the last write-back is the logits array. -/
theorem final (c : Dev nD) : (dats m 0 c).arrAt 3 cfg0.N = target m c :=
  (dats m 0 c).arrAt_eq_of_cover 3 (target m c) (fun t _ => flushed_eq m c t) covered

/-- The run with its result named: the result array at the logits array of the launch contents, the labels and the
    three float arguments as launched. -/
theorem run_value : θ_run defs (onTc (τ := τ) (main (F := Ideal))) ⟨m, fun _ => 0, ρ⟩ (fun r => ∀ c : Dev nD,
      r.2.mem ((c.tc : Thread nD τ).loc main_v1) = target m c
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    have hl := ((h c).2 main_arg1 (Pipeline.mem_restRefs_of main_arg1 (by decide) (by decide))).trans (V_main_arg1 m c)
    ⟨((h c).1 3).trans (final m c), hl,
      ((h c).1 0).trans (((dats m 0 c).arrAt_in 0 rfl _).trans ((A_eq m c 0).trans (V_main_arg0 m c))), hl,
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ)

end Cert.KernelIdeal.Data

end
-- ==== Proof.RefValue.lean ====
/-
  The reference program's result is the logits array of Spec.lean.

  Read one operation at a time, the reference's last stage at index (m, n) is
      (Σ k, x (m, k) * Wᵀ (k, n)) + row (0, n)
  where Wᵀ (k, n) = W (n, k) is the transpose and row (0, n) = b n is the bias laid out as one row and then
  repeated down the 1024 rows. Re-indexing the three reads gives entry (m, n) of the logits array.
-/
import proofs.«179517_g5669356834823_cont_9to1_m_968_5_alg».proof.Proof.Gen.ReferenceIdeal.Read
import proofs.«179517_g5669356834823_cont_9to1_m_968_5_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's last stage, as a whole array, is the logits array of its three float arguments. -/
theorem stage_eq_logits (x : S1024x512.Idx → EReal) (w : S100000x512.Idx → EReal) (b : S100000.Idx → EReal) :
    val_main_v4 (F := Ideal) x w b = Cert.Logits.logits x w b := by
  funext i
  -- the left factor is read at (m, k), the transposed right factor at (n, k), the bias at n
  have hx : ∀ k : Fin 512, lidx_main_v1 i k = ix2 (i 0) k := fun k =>
    funext fun a => Fin.ext (by match a with | ⟨0, _⟩ => rfl | ⟨1, _⟩ => rfl)
  have hw : ∀ k : Fin 512, idx_main_v0 (ridx_main_v1 i k) = ix2 (i 1) k := fun k =>
    funext fun a => Fin.ext (by match a with | ⟨0, _⟩ => rfl | ⟨1, _⟩ => rfl)
  have hb : idx_main_v2 (idx_main_v3 i) = ix1 (i 1) :=
    funext fun a => Fin.ext (by match a with | ⟨0, _⟩ => rfl)
  rw [val_main_v4_apply, val_main_v1_apply, val_main_v3_apply, val_main_v2_apply]
  simp only [val_main_v0_apply, hx, hw, hb]
  rfl

end Cert.ReferenceIdeal.RefValue

end
-- ==== Proof.lean ====
/-
  A dense output projection, computed block by block, equals the same projection computed whole.

  Both programs take activations x : [1024, 512], integer labels, a weight matrix W : [100000, 512] and a bias
  b : [100000], and return the logits x Wᵀ + b : [1024, 100000] together with the labels unchanged.

  The reference transposes W, contracts x with the transpose in one product, and adds b repeated down the rows.
  The kernel walks the 100000 output columns in 49 blocks of 2048: at block t it multiplies x by the transpose of rows
  2048 t … of W into a zero accumulator, adds columns 2048 t … of the bias laid out as a row, and writes columns
  2048 t … of the result. The last block overhangs the arrays by 352; what the overhanging part of a staging buffer
  holds is not determined, but entry (p, q) of a block's result depends on row q of the weight block and column q of
  the bias block only, and the overhanging columns are never written back.

  On the extended reals both sides are, at (m, n), the sum over k of x (m, k) · W (n, k), plus b n: the same 512
  products in the same order of factors, summed over the same index set. No distributivity, cancellation or
  finiteness is used; the precondition is never opened.

  The word-level kernel's claim is only that it runs and leaves its arguments alone, which needs nothing of what
  the body computes. Its idealization is the same text read at exact values (no rewrite was applied).
-/
import proofs.«179517_g5669356834823_cont_9to1_m_968_5_alg».proof.Defs
import proofs.«179517_g5669356834823_cont_9to1_m_968_5_alg».proof.Proof.Gen.Kernel
import proofs.«179517_g5669356834823_cont_9to1_m_968_5_alg».proof.Proof.Gen.KernelIdeal
import proofs.«179517_g5669356834823_cont_9to1_m_968_5_alg».proof.Proof.Gen.ReferenceIdeal
import proofs.«179517_g5669356834823_cont_9to1_m_968_5_alg».proof.Proof.Gen.Pre_finite_inputs
import proofs.«179517_g5669356834823_cont_9to1_m_968_5_alg».proof.Proof.FrameBits
import proofs.«179517_g5669356834823_cont_9to1_m_968_5_alg».proof.Proof.RunIdeal
import proofs.«179517_g5669356834823_cont_9to1_m_968_5_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its four arguments as launched. -/
theorem frame_kernel : Cert.frame_Kernel := fun m ρ _ => Cert.Kernel.FrameR.frame (F := Bits) m ρ

/-- So does the kernel read at exact values. -/
theorem frame_ideal : Cert.frame_KernelIdeal := fun m ρ _ => Cert.KernelIdeal.Data.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments, both programs end with the logits array of those arguments and with
    the labels: the kernel's result array by the cover of its 49 write-backs, the reference's by reading its five
    operations at an index. -/
theorem algebraic : Cert.algebraic_KernelIdeal_ReferenceIdeal := by
  intro m ρ m' ρ' _ hagree
  refine ⟨fun c => Cert.KernelIdeal.Data.target m c,
    fun c => m ((c.tc : Thread Cert.KernelIdeal.nD Cert.KernelIdeal.τ).loc Cert.KernelIdeal.main_arg1),
    Cert.KernelIdeal.Data.run_value m ρ, ?_⟩
  refine (θ_run Cert.ReferenceIdeal.defs _ _).mono
    (fun _ h c => ⟨(h c).1.trans ?_, (h c).2.1.trans (hagree c).2.1, (h c).2.2⟩)
    (Cert.ReferenceIdeal.Value.run (F := Ideal) m' ρ')
  rw [(hagree c).1, (hagree c).2.2.1, (hagree c).2.2.2]
  exact (Cert.ReferenceIdeal.Read.val_main_v4_eq _ _ _).trans (Cert.ReferenceIdeal.RefValue.stage_eq_logits _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
